-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn {F : FTy → Type} [FloatOps F] (main_arg0 : FVec F S8192x4096 .f32) (main_arg1 : FVec F S4096x4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  main_v8
-- ==== Kernel.lean ====
abbrev S8192x4096 : Shape := ⟨2, ![8192, 4096]⟩
abbrev S4096x4096 : Shape := ⟨2, ![4096, 4096]⟩
abbrev S2048x512 : Shape := ⟨2, ![2048, 512]⟩
abbrev S512x1024 : Shape := ⟨2, ![512, 1024]⟩
abbrev S2048x1024 : Shape := ⟨2, ![2048, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S8192x4096, .bf16⟩
  | .hbm, ⟨3, _⟩ => ⟨S4096x4096, .bf16⟩
  | .hbm, ⟨4, _⟩ => ⟨S8192x4096, .f32⟩
  | .local _ .vmem, ⟨0, _⟩ => ⟨S2048x512, .bf16⟩
  | .local _ .vmem, ⟨1, _⟩ => ⟨S2048x512, .bf16⟩
  | .local _ .vmem, ⟨2, _⟩ => ⟨S512x1024, .bf16⟩
  | .local _ .vmem, ⟨3, _⟩ => ⟨S512x1024, .bf16⟩
  | .local _ .vmem, ⟨4, _⟩ => ⟨S2048x1024, .f32⟩
  | .local _ .vmem, ⟨5, _⟩ => ⟨S2048x1024, .f32⟩
  | .local _ .vmem, ⟨6, _⟩ => ⟨S2048x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  bitsLt_bf16_f32 : FTy.bits .bf16 < FTy.bits .f32
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  dot_S2048x512_S512x1024_S2048x1024_1_0_0_1_n_n_wf : DotDims.WF S2048x512 S512x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S8192x4096.size a
  hwx0_0 : ∀ i : grid0.Coords, EltTy.bits .bf16 = 32 ∨ (Rect.block (s := S8192x4096) S2048x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x4096.size a
  hwx0_1 : ∀ i : grid0.Coords, EltTy.bits .bf16 = 32 ∨ (Rect.block (s := S4096x4096) S512x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1024.size a ≤ S8192x4096.size a
  hwx0_2 : ∀ i : grid0.Coords, EltTy.bits .f32 = 32 ∨ (Rect.block (s := S8192x4096) S2048x1024.size (cc0_transform_2 i) (hinb0_2 i)).WholeWords (EltTy.packing .f32)

variable [Facts₀]

def dot_S2048x512_S512x1024_S2048x1024_1_0_0_1_n_n : DotDims S2048x512 S512x1024 S2048x1024 where
  lhsContracting := [1]
  rhsContracting := [0]
  lhsNonContracting := [0]
  rhsNonContracting := [1]
  lhsBatch := []
  rhsBatch := []
  wf := dot_S2048x512_S512x1024_S2048x1024_1_0_0_1_n_n_wf

abbrev win0_0 : Pipeline.Window sig grid0 :=
  Pipeline.Window.ofSpec (Memref.whole main_v0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S2048x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩

abbrev nBuf : Space → Nat
  | .hbm => 3
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  dot_S8192x4096_S4096x4096_S8192x4096_1_0_0_1_n_n_wf : DotDims.WF S8192x4096 S4096x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.Steps.lean ====
/-
  What one grid point leaves behind, as a function of what it found.

  The kernel's body keeps a running [2048, 1024] accumulator. At a point it is handed the point's block `x0` of the left
  operand and the block `x1` of the right operand, and (except at the first point of a sweep) the accumulator `acc`
  the point before left. Every store of the body goes through the whole buffer, so what a buffer holds afterwards is
  the payload of the last store into it:

    * at the first point of a sweep the accumulator is first set to the zero block and then replaced by
      `step zero x0 x1`, where `step acc x0 x1 = acc + x0 · x1` is the body's one arithmetic payload;
    * at every later point it is replaced by `step acc x0 x1`;
    * at the last point of a sweep the output block receives a copy of the accumulator just stored, the same
      `step acc x0 x1`.

  These hold for any interpretation of the floats.
-/
import proofs.«147716_j63986422775980_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Steps

open Cert.KernelIdeal Cert.KernelIdeal.Gen

variable {F : FTy → Type} [FloatOps F]

/-- The offset of every access of the body: the origin. -/
theorem origin : (![0, 0] : Fin 2 → Nat) = fun _ => 0 := funext fun a => by fin_cases a <;> rfl

/-- First point of a sweep: the accumulator ends at one step from the zero block. -/
theorem first_acc (c : Dev nD) (i : grid0.Coords) (arg3 : Memref sig .tc .vmem S2048x512 .bf16) (harg3 : arg3.IsWhole) (arg4 : Memref sig .tc .vmem S512x1024 .bf16) (harg4 : arg4.IsWhole) (arg5 : Memref sig .tc .vmem S2048x1024 .f32) (harg5 : arg5.IsWhole) (arg6 : Memref sig .tc .vmem S2048x1024 .f32) (harg6 : arg6.IsWhole) (hc0 : cond0_0 i) (hc1 : ¬cond0_1 i)
    (x0 : Vec F S2048x512 .bf16) (x1 : Vec F S512x1024 .bf16) :
    sout0_A_0 c i arg3 harg3 arg4 harg4 arg5 harg5 arg6 harg6 hc0 hc1 x0 x1 = k0_pay2 k0_pay1 x0 x1 := by
  unfold sout0_A_0
  rw [View.read_writes_eq_canon _ _ _ (scover0_A_0 c i arg3 harg3 arg4 harg4 arg5 harg5 arg6 harg6 hc0 hc1 x0 x1)]
  unfold kernelRun0_A
  dsimp only
  sl_unfold_words
  rw [View.canon_cons_unit_zero (S := S2048x1024) origin, View.readCov_unit_zero (S := S2048x1024) _ origin]
  simp only [View.readAt_eq_ld, harg3.read_unread, harg4.read_unread,
    View.ld_unit_zero (S := S2048x512) origin, View.ld_unit_zero (S := S512x1024) origin]

/-- A middle point of a sweep: the accumulator ends one step further. -/
theorem middle_acc (c : Dev nD) (i : grid0.Coords) (arg3 : Memref sig .tc .vmem S2048x512 .bf16) (harg3 : arg3.IsWhole) (arg4 : Memref sig .tc .vmem S512x1024 .bf16) (harg4 : arg4.IsWhole) (arg5 : Memref sig .tc .vmem S2048x1024 .f32) (harg5 : arg5.IsWhole) (arg6 : Memref sig .tc .vmem S2048x1024 .f32) (harg6 : arg6.IsWhole) (hc0 : ¬cond0_0 i) (hc1 : ¬cond0_1 i)
    (x0 : Vec F S2048x512 .bf16) (x1 : Vec F S512x1024 .bf16) (acc : Vec F S2048x1024 .f32) :
    sout0_B_0 c i arg3 harg3 arg4 harg4 arg5 harg5 arg6 harg6 hc0 hc1 x0 x1 acc = k0_pay2 acc x0 x1 := by
  unfold sout0_B_0
  rw [View.read_writes_eq_canon _ _ _ (scover0_B_0 c i arg3 harg3 arg4 harg4 arg5 harg5 arg6 harg6 hc0 hc1 x0 x1 acc)]
  unfold kernelRun0_B
  dsimp only
  rw [View.canon_unit_zero origin]
  simp only [View.readAt_eq_ld, harg3.read_unread, harg4.read_unread, harg6.read_unread,
    View.ld_unit_zero (S := S2048x1024) origin, View.ld_unit_zero (S := S2048x512) origin,
    View.ld_unit_zero (S := S512x1024) origin]

/-- The last point of a sweep: the accumulator ends one step further, -/
theorem last_acc (c : Dev nD) (i : grid0.Coords) (arg3 : Memref sig .tc .vmem S2048x512 .bf16) (harg3 : arg3.IsWhole) (arg4 : Memref sig .tc .vmem S512x1024 .bf16) (harg4 : arg4.IsWhole) (arg5 : Memref sig .tc .vmem S2048x1024 .f32) (harg5 : arg5.IsWhole) (arg6 : Memref sig .tc .vmem S2048x1024 .f32) (harg6 : arg6.IsWhole) (hc0 : ¬cond0_0 i) (hc1 : cond0_1 i)
    (x0 : Vec F S2048x512 .bf16) (x1 : Vec F S512x1024 .bf16) (acc : Vec F S2048x1024 .f32) :
    sout0_C_0 c i arg3 harg3 arg4 harg4 arg5 harg5 arg6 harg6 hc0 hc1 x0 x1 acc = k0_pay2 acc x0 x1 := by
  unfold sout0_C_0
  rw [View.read_writes_eq_canon _ _ _ (scover0_C_0 c i arg3 harg3 arg4 harg4 arg5 harg5 arg6 harg6 hc0 hc1 x0 x1 acc)]
  unfold kernelRun0_C
  dsimp only
  sl_unfold_words
  rw [View.canon_unit_zero origin]
  simp only [View.readAt_eq_ld, harg3.read_unread, harg4.read_unread, harg6.read_unread,
    View.ld_unit_zero (S := S2048x1024) origin, View.ld_unit_zero (S := S2048x512) origin,
    View.ld_unit_zero (S := S512x1024) origin]

/-- and the output block receives that same accumulator. -/
theorem last_out (c : Dev nD) (i : grid0.Coords) (arg3 : Memref sig .tc .vmem S2048x512 .bf16) (harg3 : arg3.IsWhole) (arg4 : Memref sig .tc .vmem S512x1024 .bf16) (harg4 : arg4.IsWhole) (arg5 : Memref sig .tc .vmem S2048x1024 .f32) (harg5 : arg5.IsWhole) (arg6 : Memref sig .tc .vmem S2048x1024 .f32) (harg6 : arg6.IsWhole) (hc0 : ¬cond0_0 i) (hc1 : cond0_1 i)
    (x0 : Vec F S2048x512 .bf16) (x1 : Vec F S512x1024 .bf16) (acc : Vec F S2048x1024 .f32) :
    out0_C_2 c i arg3 harg3 arg4 harg4 arg5 harg5 arg6 harg6 hc0 hc1 x0 x1 acc = k0_pay2 acc x0 x1 := by
  unfold out0_C_2
  rw [View.read_writes_eq_canon _ _ _ (cover0_C_2 c i arg3 harg3 arg4 harg4 arg5 harg5 arg6 harg6 hc0 hc1 x0 x1 acc)]
  unfold kernelRun0_C
  dsimp only
  sl_unfold_words
  rw [View.canon_unit_zero origin, View.readCov_unit_zero (S := S2048x1024) _ origin]
  simp only [View.readAt_eq_ld, harg3.read_unread, harg4.read_unread, harg6.read_unread,
    View.ld_unit_zero (S := S2048x1024) origin, View.ld_unit_zero (S := S2048x512) origin,
    View.ld_unit_zero (S := S512x1024) origin]

end Cert.KernelIdeal.Steps

end
-- ==== Proof.LibPlainDot.lean ====
/-
  A plain matrix product read at an index, at the ideal values.

  For a left operand of shape [R, K] and a right operand of shape [K, C] contracted over the shared axis
  (no batch axis), the kernel's matrix product into a zero accumulator and the host's `dot_general` are both, at
  output index (r, c), the sum over k of left (r, k) times right (k, c).  The extents R, K, C are symbolic: the same
  lemmas serve a row block of the left operand and the whole array.
-/
import Idealize.ShloMosaic.PureOps.Ideal.Laws
import Idealize.ShloMosaic.Lib.ValueIdx

noncomputable section

namespace Cert.Lib.PlainDot

open Idealize.ShloMosaic Idealize.ShloMosaic.ValueIdx
open scoped BigOperators

variable {R K C : Nat}

/-- The left operand's index (r, k) for output index `j` = (r, c) and contraction position `k`. -/
abbrev rowIdx (j : (⟨2, ![R, C]⟩ : Shape).Idx) (k : Fin K) : (⟨2, ![R, K]⟩ : Shape).Idx := fun a => match a with
  | ⟨0, _⟩ => ⟨(j 0).val, (j 0).isLt⟩
  | ⟨1, _⟩ => ⟨k.val, k.isLt⟩
/-- The right operand's index (k, c) for output index `j` = (r, c) and contraction position `k`. -/
abbrev colIdx (j : (⟨2, ![R, C]⟩ : Shape).Idx) (k : Fin K) : (⟨2, ![K, C]⟩ : Shape).Idx := fun a => match a with
  | ⟨0, _⟩ => ⟨k.val, k.isLt⟩
  | ⟨1, _⟩ => ⟨(j 1).val, (j 1).isLt⟩

/-- The product of an [R, K] array and a [K, C] array as a function of the output index. -/
def mm (x : (⟨2, ![R, K]⟩ : Shape).Idx → EReal) (w : (⟨2, ![K, C]⟩ : Shape).Idx → EReal) :
    (⟨2, ![R, C]⟩ : Shape).Idx → EReal :=
  fun j => ∑ k : Fin K, x (rowIdx j k) * w (colIdx j k)

theorem lhs0 (j : (⟨2, ![R, C]⟩ : Shape).Idx) (q : (DotDims.plain R K C).contr.Idx) :
    ((DotDims.plain R K C).lhsIdx j q 0).val = (j 0).val := by
  unfold DotDims.lhsIdx
  rw [dif_neg (show ¬(0 : Fin 2) ∈ (DotDims.plain R K C).lhsBatch from List.not_mem_nil),
    dif_pos (show (0 : Fin 2) ∈ (DotDims.plain R K C).lhsNonContracting from List.mem_singleton.mpr rfl)]
  rfl
theorem lhs1 (j : (⟨2, ![R, C]⟩ : Shape).Idx) (q : (DotDims.plain R K C).contr.Idx) :
    ((DotDims.plain R K C).lhsIdx j q 1).val = (q ⟨0, (show 0 < (DotDims.plain R K C).contr.rank from Nat.one_pos)⟩).val :=
  (DotDims.plain R K C).lhsIdx_val_of_single rfl j q
theorem rhs0 (j : (⟨2, ![R, C]⟩ : Shape).Idx) (q : (DotDims.plain R K C).contr.Idx) :
    ((DotDims.plain R K C).rhsIdx j q 0).val = (q ⟨0, (show 0 < (DotDims.plain R K C).contr.rank from Nat.one_pos)⟩).val :=
  (DotDims.plain R K C).rhsIdx_val_of_single rfl j q
theorem rhs1 (j : (⟨2, ![R, C]⟩ : Shape).Idx) (q : (DotDims.plain R K C).contr.Idx) :
    ((DotDims.plain R K C).rhsIdx j q 1).val = (j 1).val := by
  unfold DotDims.rhsIdx
  rw [dif_neg (show ¬(1 : Fin 2) ∈ (DotDims.plain R K C).rhsBatch from List.not_mem_nil),
    dif_pos (show (1 : Fin 2) ∈ (DotDims.plain R K C).rhsNonContracting from List.mem_singleton.mpr rfl)]
  rfl

/-- The contraction's sum, re-indexed by the one contracted coordinate. -/
theorem sum_plain (x : (⟨2, ![R, K]⟩ : Shape).Idx → EReal) (w : (⟨2, ![K, C]⟩ : Shape).Idx → EReal)
    (j : (⟨2, ![R, C]⟩ : Shape).Idx) :
    ∑ q : (DotDims.plain R K C).contr.Idx, x ((DotDims.plain R K C).lhsIdx j q) * w ((DotDims.plain R K C).rhsIdx j q)
      = mm x w j := by
  unfold mm
  rw [← Equiv.sum_comp (contrEquiv1 (DotDims.plain R K C) K rfl rfl).symm]
  refine Finset.sum_congr rfl fun k _ => ?_
  have hk := contrEquiv1_symm_val (DotDims.plain R K C) K rfl rfl k
  have el : (DotDims.plain R K C).lhsIdx j ((contrEquiv1 (DotDims.plain R K C) K rfl rfl).symm k) = rowIdx j k :=
    funext fun a => Fin.ext (by
      match a with
      | ⟨0, _⟩ => exact lhs0 _ _
      | ⟨1, _⟩ => exact (lhs1 _ _).trans hk)
  have er : (DotDims.plain R K C).rhsIdx j ((contrEquiv1 (DotDims.plain R K C) K rfl rfl).symm k) = colIdx j k :=
    funext fun a => Fin.ext (by
      match a with
      | ⟨0, _⟩ => exact (rhs0 _ _).trans hk
      | ⟨1, _⟩ => exact rhs1 _ _)
  rw [el, er]

/-- The kernel's matrix product into the zero accumulator, at an index. -/
theorem matmul_zero_apply {φ₁ φ₂ : FTy} (d : DotDims ⟨2, ![R, K]⟩ ⟨2, ![K, C]⟩ ⟨2, ![R, C]⟩)
    (hd : d = DotDims.plain R K C) (prec : Option ContractPrecision)
    (x : FVec Ideal ⟨2, ![R, K]⟩ φ₁) (w : FVec Ideal ⟨2, ![K, C]⟩ φ₂) (j : (⟨2, ![R, C]⟩ : Shape).Idx) :
    FloatOps.matmul d prec x w (constant ⟨2, ![R, C]⟩ .f32 0x00000000#32) j = mm x w j := by
  subst hd
  rw [Ideal.matmul_constant_zero_apply]
  exact sum_plain x w j

/-- The host's `dot_general`, at an index. -/
theorem dotGeneral_apply {φ₁ φ₂ : FTy} (d : DotDims ⟨2, ![R, K]⟩ ⟨2, ![K, C]⟩ ⟨2, ![R, C]⟩)
    (hd : d = DotDims.plain R K C) (prec : Option ContractPrecision) (sched : HostSchedule)
    (x : FVec Ideal ⟨2, ![R, K]⟩ φ₁) (w : FVec Ideal ⟨2, ![K, C]⟩ φ₂) (j : (⟨2, ![R, C]⟩ : Shape).Idx) :
    FloatOps.dotGeneral d prec sched x w j = mm x w j := by
  subst hd
  rw [Ideal.dotGeneral_apply]
  exact sum_plain x w j

end Cert.Lib.PlainDot

end
-- ==== Proof.PayAt.lean ====
/-
  The body's arithmetic at the exact values, read at one entry.

  On the extended reals a change of float format is the identity and a matrix product into a zero accumulator is the
  plain sum of products. So the zero block is 0 at every entry, and one step of the accumulation adds, at entry
  (r, c) of the [2048, 1024] accumulator, the sum over the 512 positions j of a block of
  left (r, j) · right (j, c).
-/
import proofs.«147716_j63986422775980_2_alg».proof.Proof.Gen.KernelIdeal.Skeleton
import proofs.«147716_j63986422775980_2_alg».proof.Proof.LibPlainDot
import Idealize.ShloMosaic.Lib.Pipeline.Value
import Idealize.ShloMosaic.Lib.ValueIdx
import Idealize.ShloMosaic.PureOps.Ideal.Laws

noncomputable section

open Idealize.ShloMosaic

namespace Cert.KernelIdeal.PayAt

open Cert.KernelIdeal Cert.KernelIdeal.Gen Cert.Lib

/-- The body's product is the plain [2048, 512] × [512, 1024] one. -/
theorem dims_plain : dot_S2048x512_S512x1024_S2048x1024_1_0_0_1_n_n = DotDims.plain 2048 512 1024 := rfl

/-- The zero block is 0 at every entry. -/
theorem zero_at (y : S2048x1024.Idx) : (k0_pay1 (F := Ideal)) y = 0 := by
  unfold k0_pay1
  simp only [shapeCast_self]
  show Ideal.ofBits .f32 0x00000000#32 = 0
  exact Ideal.ofBits_zero_f32

/-- One step of the accumulation at entry `y`: what was there plus the block's sum of products. -/
theorem step_at (acc : Vec Ideal S2048x1024 .f32) (x0 : Vec Ideal S2048x512 .bf16) (x1 : Vec Ideal S512x1024 .bf16)
    (y : S2048x1024.Idx) :
    k0_pay2 (F := Ideal) acc x0 x1 y = acc y + PlainDot.mm (R := 2048) (K := 512) (C := 1024) x0 x1 y := by
  unfold k0_pay2
  simp only [shapeCast_self]
  exact congrArg (acc y + ·)
    (PlainDot.matmul_zero_apply (R := 2048) (K := 512) (C := 1024) (φ₁ := .bf16) (φ₂ := .bf16) _ dims_plain none x0 x1 y)

end Cert.KernelIdeal.PayAt

end
-- ==== Proof.LibBlockSum.lean ====
/-
  A sum over n · d consecutive indices, cut into n consecutive blocks of d.

  The whole sum is the sum over the blocks of each block's sum, in any additive commutative monoid — in particular on
  the extended reals, where nothing needs to be finite: only commutativity and associativity of addition are used.
  Position j of block b is the index b · d + j.
-/
import Mathlib.Algebra.BigOperators.Fin
import Mathlib.Algebra.BigOperators.Intervals
import Mathlib.Logic.Equiv.Fin.Basic

namespace Cert.Lib.BlockSum

open Finset

/-- Position `j` of block `b`, as an index below `n * d`. -/
def pos (n d : Nat) (b : Fin n) (j : Fin d) : Fin (n * d) :=
  ⟨b.val * d + j.val, by
    have hj := j.isLt
    have h : (b.val + 1) * d ≤ n * d := Nat.mul_le_mul_right d b.isLt
    rw [Nat.succ_mul] at h
    omega⟩

@[simp] theorem pos_val (n d : Nat) (b : Fin n) (j : Fin d) : (pos n d b j).val = b.val * d + j.val := rfl

/-- The whole sum is the sum of the block sums. -/
theorem sum_blocks {M : Type*} [AddCommMonoid M] (n d : Nat) (f : Fin (n * d) → M) :
    ∑ k : Fin (n * d), f k = ∑ b : Fin n, ∑ j : Fin d, f (pos n d b j) := by
  rw [← Fintype.sum_prod_type']
  refine (Fintype.sum_equiv finProdFinEquiv _ _ (fun p => ?_)).symm
  congr 1
  apply Fin.ext
  simp [finProdFinEquiv, pos_val, Nat.mul_comm, Nat.add_comm]

end Cert.Lib.BlockSum
-- ==== Proof.Spec.lean ====
/-
  The product X · Q of an [8192, 4096] array and a [4096, 4096] array, entry by entry, and the same entry as a sum
  over the 8 consecutive blocks of 512 contraction positions.

  Entry (r, c) of the product is the sum over k < 4096 of X (r, k) · Q (k, c). Cutting the range of k into the blocks
  [512 b, 512 b + 512), b < 8, the entry is the sum over b of the block's own sum of products. Only the commutative
  monoid structure of addition on the extended reals is used: nothing is assumed finite.

  Arrays are read at pairs of naturals (0 outside the array), so that a position computed from a block number and a
  position inside the block needs no proof of being in range at the place where it is used.
-/
import proofs.«147716_j63986422775980_2_alg».proof.Proof.LibPlainDot
import proofs.«147716_j63986422775980_2_alg».proof.Proof.LibBlockSum

noncomputable section

open Idealize.ShloMosaic

namespace Cert.Spec

open Cert.Lib
open scoped BigOperators

variable {R C : Nat}

/-- Entry (r, k) of an [R, C] array, as an index. -/
abbrev entry (r k : Nat) (hr : r < R) (hk : k < C) : (⟨2, ![R, C]⟩ : Shape).Idx := fun a => match a with
  | ⟨0, _⟩ => ⟨r, hr⟩
  | ⟨1, _⟩ => ⟨k, hk⟩

/-- An [R, C] array read at a pair of naturals: 0 outside the array. -/
def rd (A : (⟨2, ![R, C]⟩ : Shape).Idx → EReal) (r k : Nat) : EReal :=
  if h : r < R ∧ k < C then A (entry r k h.1 h.2) else 0

theorem rd_of_lt (A : (⟨2, ![R, C]⟩ : Shape).Idx → EReal) (r k : Nat) (hr : r < R) (hk : k < C) :
    rd A r k = A (entry r k hr hk) := dif_pos ⟨hr, hk⟩

/-- Read at an index's own coordinates, the array's entry there. -/
theorem rd_idx (A : (⟨2, ![R, C]⟩ : Shape).Idx → EReal) (i : (⟨2, ![R, C]⟩ : Shape).Idx) :
    rd A (i 0).val (i 1).val = A i := by
  rw [rd_of_lt A _ _ (i 0).isLt (i 1).isLt]
  congr 1
  funext a
  match a with
  | ⟨0, _⟩ => rfl
  | ⟨1, _⟩ => rfl

/-- Block `b`'s share of entry (r, c) of X · Q: the sum over the block's 512 positions. -/
def blockTerm (X : (⟨2, ![8192, 4096]⟩ : Shape).Idx → EReal) (Q : (⟨2, ![4096, 4096]⟩ : Shape).Idx → EReal)
    (r c b : Nat) : EReal :=
  ∑ j : Fin 512, rd X r (b * 512 + j.val) * rd Q (b * 512 + j.val) c

/-- Entry `i` of X · Q is the sum of its 8 block shares. -/
theorem prod_eq_blocks (X : (⟨2, ![8192, 4096]⟩ : Shape).Idx → EReal) (Q : (⟨2, ![4096, 4096]⟩ : Shape).Idx → EReal)
    (i : (⟨2, ![8192, 4096]⟩ : Shape).Idx) :
    PlainDot.mm (R := 8192) (K := 4096) (C := 4096) X Q i
      = ∑ b ∈ Finset.range 8, blockTerm X Q (i 0).val (i 1).val b := by
  rw [Finset.sum_range]
  unfold PlainDot.mm blockTerm
  refine (BlockSum.sum_blocks 8 512
    (fun k : Fin (8 * 512) => X (PlainDot.rowIdx (K := 4096) i k) * Q (PlainDot.colIdx (K := 4096) i k))).trans ?_
  refine Finset.sum_congr rfl fun b _ => Finset.sum_congr rfl fun j _ => ?_
  have hk : b.val * 512 + j.val < 4096 := (BlockSum.pos 8 512 b j).isLt
  have el : PlainDot.rowIdx (K := 4096) i (BlockSum.pos 8 512 b j)
      = entry (i 0).val (b.val * 512 + j.val) (i 0).isLt hk := funext fun a => by
    match a with
    | ⟨0, _⟩ => rfl
    | ⟨1, _⟩ => rfl
  have er : PlainDot.colIdx (K := 4096) i (BlockSum.pos 8 512 b j)
      = entry (b.val * 512 + j.val) (i 1).val hk (i 1).isLt := funext fun a => by
    match a with
    | ⟨0, _⟩ => rfl
    | ⟨1, _⟩ => rfl
  rw [rd_of_lt X _ _ (i 0).isLt hk, rd_of_lt Q _ _ hk (i 1).isLt]
  exact congrArg₂ (fun u v => X u * Q v) el er

end Cert.Spec

end
-- ==== Proof.Blocks.lean ====
/-
  The blocks the kernel's body is handed at a grid point, read at an entry of the argument arrays.

  The grid has 4 · 4 · 8 = 128 points; point t has row-block number t / 32, column-block number (t / 8) % 4 and
  contraction-block number t % 8. The left operand's block at t is rows [2048 (t/32), +2048) and columns
  [512 (t%8), +512) of X; the right operand's block is rows [512 (t%8), +512) and columns [1024 ((t/8)%4), +1024) of Q.
  (The arrays the blocks are cut from are the bf16 copies of X and Q the host makes before the call; at the exact
  values a change of format is the identity, so they are X and Q.) Hence the sum of products one step adds at entry
  (y0, y1) of the accumulator is block t % 8's share of entry (2048 (t/32) + y0, 1024 ((t/8)%4) + y1) of X · Q.
-/
import proofs.«147716_j63986422775980_2_alg».proof.Proof.Gen.KernelIdeal.Frame
import proofs.«147716_j63986422775980_2_alg».proof.Proof.Spec
import Idealize.ShloMosaic.Lib.Pipeline.Value
import Idealize.ShloMosaic.Lib.StableHlo.Run
import Idealize.ShloMosaic.Lib.ValueIdx

noncomputable section

open Idealize.ShloMosaic Idealize.ShloMosaic.TcCoe Idealize.SL.Sem

namespace Cert.KernelIdeal.Blocks

open Cert.KernelIdeal Cert.KernelIdeal.Gen Cert.Lib Cert.Spec
open scoped BigOperators

variable (m : (ℓ : Loc nD τ sig) → Buf (Elt Ideal) ℓ)

/-- The block numbers of the three windows at a point, decided over the grid. -/
theorem block_numbers : ∀ t : Fin cfg0.N,
    win0_0.index t (0 : Fin 2) = t.val / 32 ∧ win0_0.index t (1 : Fin 2) = t.val % 8
    ∧ win0_1.index t (0 : Fin 2) = t.val % 8 ∧ win0_1.index t (1 : Fin 2) = t.val / 8 % 4
    ∧ win0_2.index t (0 : Fin 2) = t.val / 32 ∧ win0_2.index t (1 : Fin 2) = t.val / 8 % 4 :=
  (by decide +kernel : ∀ t : Fin grid0.N, _)

/-- The array the left operand's blocks are cut from is X. -/
theorem left_array (c : Dev nD) :
    (V (F := Ideal) m c main_v0 : S8192x4096.Idx → EReal) = m ((c : Thread nD τ).loc main_arg0) := by
  dsimp only [Gen.V, Gen.hostOps0]
  after_results
  rfl

/-- The array the right operand's blocks are cut from is Q. -/
theorem right_array (c : Dev nD) :
    (V (F := Ideal) m c main_v1 : S4096x4096.Idx → EReal) = m ((c : Thread nD τ).loc main_arg1) := by
  dsimp only [Gen.V, Gen.hostOps0]
  after_results
  rfl

/-- The left operand's block at point `t`, at (y0, j): X at row 2048 (t/32) + y0, column 512 (t%8) + j. -/
theorem left_block (c : Dev nD) (t : Fin cfg0.N) (y : S2048x512.Idx) :
    (iblk (F := Ideal) m c 0 t : S2048x512.Idx → EReal) y
      = rd (R := 8192) (C := 4096) (m ((c : Thread nD τ).loc main_arg0))
          (t.val / 32 * 2048 + (y 0).val) (t.val % 8 * 512 + (y 1).val) := by
  obtain ⟨e0, e1, -, -, -, -⟩ := block_numbers t
  have hN : t.val < 128 := lt_of_lt_of_eq t.isLt (show cfg0.N = 128 from N_0)
  have h0 : (y 0).val < 2048 := (y 0).isLt
  have h1 : (y 1).val < 512 := (y 1).isLt
  rw [rd_of_lt _ _ _ (by omega) (by omega)]
  show V m c main_v0 (((cfg0.win 0).blk t).view.emb y) = _
  rw [show (V m c main_v0 : S8192x4096.Idx → EReal) = _ from left_array m c]
  congr 1
  funext a
  apply Fin.ext
  match a with
  | ⟨0, _⟩ => show win0_0.index t (0 : Fin 2) * 2048 + 1 * (y 0).val = t.val / 32 * 2048 + (y 0).val; rw [e0]; omega
  | ⟨1, _⟩ => show win0_0.index t (1 : Fin 2) * 512 + 1 * (y 1).val = t.val % 8 * 512 + (y 1).val; rw [e1]; omega

/-- The right operand's block at point `t`, at (j, y1): Q at row 512 (t%8) + j, column 1024 ((t/8)%4) + y1. -/
theorem right_block (c : Dev nD) (t : Fin cfg0.N) (y : S512x1024.Idx) :
    (iblk (F := Ideal) m c 1 t : S512x1024.Idx → EReal) y
      = rd (R := 4096) (C := 4096) (m ((c : Thread nD τ).loc main_arg1))
          (t.val % 8 * 512 + (y 0).val) (t.val / 8 % 4 * 1024 + (y 1).val) := by
  obtain ⟨-, -, e0, e1, -, -⟩ := block_numbers t
  have hN : t.val < 128 := lt_of_lt_of_eq t.isLt (show cfg0.N = 128 from N_0)
  have h0 : (y 0).val < 512 := (y 0).isLt
  have h1 : (y 1).val < 1024 := (y 1).isLt
  rw [rd_of_lt _ _ _ (by omega) (by omega)]
  show V m c main_v1 (((cfg0.win 1).blk t).view.emb y) = _
  rw [show (V m c main_v1 : S4096x4096.Idx → EReal) = _ from right_array m c]
  congr 1
  funext a
  apply Fin.ext
  match a with
  | ⟨0, _⟩ => show win0_1.index t (0 : Fin 2) * 512 + 1 * (y 0).val = t.val % 8 * 512 + (y 0).val; rw [e0]; omega
  | ⟨1, _⟩ => show win0_1.index t (1 : Fin 2) * 1024 + 1 * (y 1).val = t.val / 8 % 4 * 1024 + (y 1).val; rw [e1]; omega

/-- The sum of products of the two blocks at point `t`, at entry `y` of the accumulator, is block t % 8's share of the
    entry of X · Q that `y` stands for at `t`. -/
theorem block_product (c : Dev nD) (t : Fin cfg0.N) (y : S2048x1024.Idx) :
    PlainDot.mm (R := 2048) (K := 512) (C := 1024)
        (iblk (F := Ideal) m c 0 t : S2048x512.Idx → EReal) (iblk (F := Ideal) m c 1 t : S512x1024.Idx → EReal) y
      = blockTerm (m ((c : Thread nD τ).loc main_arg0)) (m ((c : Thread nD τ).loc main_arg1))
          (t.val / 32 * 2048 + (y 0).val) (t.val / 8 % 4 * 1024 + (y 1).val) (t.val % 8) := by
  unfold PlainDot.mm blockTerm
  refine Finset.sum_congr rfl fun j _ => ?_
  exact congrArg₂ (· * ·) (left_block m c t (PlainDot.rowIdx y j)) (right_block m c t (PlainDot.colIdx y j))

end Cert.KernelIdeal.Blocks

end
-- ==== Proof.Accumulate.lean ====
/-
  The kernel's result array is X · Q.

  The grid sweeps, for each of the 4 × 4 output blocks, over the 8 blocks of the contraction axis: points
  8 s, 8 s + 1, …, 8 s + 7 form one sweep. The accumulator is reset to zero at the first point of a sweep and each
  point adds its block's sum of products, so after point n it holds, at entry (y0, y1), the first n % 8 + 1 block
  shares of entry (2048 (n/32) + y0, 1024 ((n/8)%4) + y1) of X · Q — by induction on n. At the last point of a sweep
  (n % 8 = 7) that is all 8 shares, the entry itself, and this is what the point writes back into its block of the
  result. The 16 written blocks tile the result array, so the array ends at X · Q.
-/
import proofs.«147716_j63986422775980_2_alg».proof.Proof.Gen.KernelIdeal.Value
import proofs.«147716_j63986422775980_2_alg».proof.Proof.Steps
import proofs.«147716_j63986422775980_2_alg».proof.Proof.PayAt
import proofs.«147716_j63986422775980_2_alg».proof.Proof.Blocks

noncomputable section

open Idealize.ShloMosaic Idealize.ShloMosaic.TcCoe Idealize.SL.Sem
open Idealize.ShloMosaic.Pipeline (Dat)

namespace Cert.KernelIdeal.Accumulate

open Cert.KernelIdeal Cert.KernelIdeal.Gen Cert.Lib Cert.Spec
open scoped BigOperators

variable (m : (ℓ : Loc nD τ sig) → Buf (Elt Ideal) ℓ) (ρ : Dev nD → PrngReg)

/-- The product of the two argument arrays as launched, as contents of the result array. -/
def product (c : Dev nD) : Buf (Elt Ideal) ((c : Thread nD τ).loc main_v2) :=
  PlainDot.mm (R := 8192) (K := 4096) (C := 4096)
    (m ((c : Thread nD τ).loc main_arg0)) (m ((c : Thread nD τ).loc main_arg1))

/-- Block `b`'s share of the entry of X · Q that accumulator entry `y` stands for at point `n`. -/
abbrev share (c : Dev nD) (n : ℕ) (y : S2048x1024.Idx) (b : ℕ) : EReal :=
  blockTerm (m ((c : Thread nD τ).loc main_arg0)) (m ((c : Thread nD τ).loc main_arg1))
    (n / 32 * 2048 + (y 0).val) (n / 8 % 4 * 1024 + (y 1).val) b

/- The per-point contents the run found are only ever used through the lemmas of `Steps`: never unfolded here. -/
attribute [local irreducible] sout0_A_0 sout0_B_0 sout0_C_0 out0_A_2 out0_B_2 out0_C_2 k0_pay1 k0_pay2

/-- At the first point of a sweep the accumulator ends at the point's own share: zero plus it. -/
theorem first_point (c : Dev nD) (n : ℕ) (hn : n < cfg0.N) (h0 : n % 8 = 0) (y : S2048x1024.Idx) :
    (outsAt0 (F := Ideal) m c n hn).2 y = share m c n y 0 := by
  have h1 : ¬n % 8 = 7 := by omega
  have e : (outsAt0 (F := Ideal) m c n hn).2
      = k0_pay2 (k0_pay1 (F := Ideal)) (iblk (F := Ideal) m c 0 ⟨n, hn⟩) (iblk (F := Ideal) m c 1 ⟨n, hn⟩) := by
    rw [show outsAt0 (F := Ideal) m c n hn = _ from outsAt0_A m c ⟨n, hn⟩ h0 h1]
    dsimp only
    exact Steps.first_acc (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) scM0_0 (Memref.isWhole_whole _) ((hcond0_0 ⟨n, hn⟩).mpr h0) (fun h => h1 ((hcond0_1 ⟨n, hn⟩).mp h))
      (iblk (F := Ideal) m c 0 ⟨n, hn⟩) (iblk (F := Ideal) m c 1 ⟨n, hn⟩)
  rw [e]
  refine (PayAt.step_at (k0_pay1 (F := Ideal)) (iblk (F := Ideal) m c 0 ⟨n, hn⟩) (iblk (F := Ideal) m c 1 ⟨n, hn⟩) y).trans ?_
  rw [PayAt.zero_at, zero_add]
  refine (Blocks.block_product m c ⟨n, hn⟩ y).trans ?_
  show blockTerm _ _ (n / 32 * 2048 + (y 0).val) (n / 8 % 4 * 1024 + (y 1).val) (n % 8) = _
  rw [h0]

/-- At a later point of a sweep the accumulator ends at what the point before left plus the point's own share. -/
theorem later_point (c : Dev nD) (n : ℕ) (hn : n < cfg0.N) (h0 : ¬n % 8 = 0) (y : S2048x1024.Idx) :
    (outsAt0 (F := Ideal) m c n hn).2 y
      = (outsAt0 (F := Ideal) m c (n - 1) (Nat.lt_of_le_of_lt (Nat.sub_le _ _) hn)).2 y + share m c n y (n % 8) := by
  have e : (outsAt0 (F := Ideal) m c n hn).2
      = k0_pay2 (outsAt0 (F := Ideal) m c (n - 1) (Nat.lt_of_le_of_lt (Nat.sub_le _ _) hn)).2
          (iblk (F := Ideal) m c 0 ⟨n, hn⟩) (iblk (F := Ideal) m c 1 ⟨n, hn⟩) := by
    by_cases h1 : n % 8 = 7
    · rw [show outsAt0 (F := Ideal) m c n hn = _ from outsAt0_C m c ⟨n, hn⟩ h0 h1]
      dsimp only
      exact Steps.last_acc (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) scM0_0 (Memref.isWhole_whole _) (fun h => h0 ((hcond0_0 ⟨n, hn⟩).mp h)) ((hcond0_1 ⟨n, hn⟩).mpr h1)
        (iblk (F := Ideal) m c 0 ⟨n, hn⟩) (iblk (F := Ideal) m c 1 ⟨n, hn⟩)
        (outsAt0 (F := Ideal) m c (n - 1) (Nat.lt_of_le_of_lt (Nat.sub_le _ _) hn)).2
    · rw [show outsAt0 (F := Ideal) m c n hn = _ from outsAt0_B m c ⟨n, hn⟩ h0 h1]
      dsimp only
      exact Steps.middle_acc (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) scM0_0 (Memref.isWhole_whole _) (fun h => h0 ((hcond0_0 ⟨n, hn⟩).mp h)) (fun h => h1 ((hcond0_1 ⟨n, hn⟩).mp h))
        (iblk (F := Ideal) m c 0 ⟨n, hn⟩) (iblk (F := Ideal) m c 1 ⟨n, hn⟩)
        (outsAt0 (F := Ideal) m c (n - 1) (Nat.lt_of_le_of_lt (Nat.sub_le _ _) hn)).2
  rw [e]
  refine (PayAt.step_at _ (iblk (F := Ideal) m c 0 ⟨n, hn⟩) (iblk (F := Ideal) m c 1 ⟨n, hn⟩) y).trans ?_
  exact congrArg (_ + ·) (Blocks.block_product m c ⟨n, hn⟩ y)

/-- After point `n` the accumulator holds the first `n % 8 + 1` shares of its sweep. -/
theorem acc_after (c : Dev nD) : ∀ (n : ℕ) (hn : n < cfg0.N) (y : S2048x1024.Idx),
    (outsAt0 (F := Ideal) m c n hn).2 y = ∑ b ∈ Finset.range (n % 8 + 1), share m c n y b := by
  intro n
  induction n using Nat.strong_induction_on with
  | _ n ih =>
    intro hn y
    by_cases h0 : n % 8 = 0
    · rw [first_point m c n hn h0 y, h0]
      exact (Finset.sum_range_one _).symm
    · rw [later_point m c n hn h0 y, ih (n - 1) (by omega) _ y]
      have e1 : (n - 1) / 32 = n / 32 := by omega
      have e2 : (n - 1) / 8 % 4 = n / 8 % 4 := by omega
      have e3 : n % 8 = (n - 1) % 8 + 1 := by omega
      unfold share
      rw [e1, e2, e3]
      exact (Finset.sum_range_succ _ _).symm

/-- At the last point of a sweep the output block receives the accumulator. -/
theorem out_eq_acc (c : Dev nD) (t : Fin cfg0.N) (h0 : ¬t.val % 8 = 0) (h1 : t.val % 8 = 7) :
    (outsAt0 (F := Ideal) m c t.val t.isLt).1 = (outsAt0 (F := Ideal) m c t.val t.isLt).2 := by
  rw [outsAt0_C m c t h0 h1]
  dsimp only
  exact (Steps.last_out (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1)
      (iblk (F := Ideal) m c 0 t) (iblk (F := Ideal) m c 1 t)
      (outsAt0 (F := Ideal) m c (t.val - 1) (Nat.lt_of_le_of_lt (Nat.sub_le _ _) t.isLt)).2).trans
    (Steps.last_acc (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1)
      (iblk (F := Ideal) m c 0 t) (iblk (F := Ideal) m c 1 t)
      (outsAt0 (F := Ideal) m c (t.val - 1) (Nat.lt_of_le_of_lt (Nat.sub_le _ _) t.isLt)).2).symm

/-- What a writing point writes back is its block of X · Q. -/
theorem flushed_eq (c : Dev nD) (t : Fin cfg0.N) (hf : (cfg0.win 2).flush t = true) :
    (dats m 0 c).flushed 2 t = ((cfg0.win 2).blk t).view.read (Elt Ideal) (product m c) := by
  have h1 : t.val % 8 = 7 := (flush0_2 t).mp hf
  have h0 : ¬t.val % 8 = 0 := by omega
  obtain ⟨-, -, -, -, e4, e5⟩ := Blocks.block_numbers t
  rw [Value.flushed2 m c t, out_eq_acc m c t h0 h1]
  funext j
  show (outsAt0 (F := Ideal) m c t.val t.isLt).2 j = product m c (((cfg0.win 2).blk t).view.emb j)
  rw [acc_after m c t.val t.isLt j, h1]
  unfold product
  rw [prod_eq_blocks]
  have r0 : ((((cfg0.win 2).blk t).view.emb j) 0).val = t.val / 32 * 2048 + (j 0).val := by
    show win0_2.index t (0 : Fin 2) * 2048 + 1 * (j 0).val = _
    rw [e4]; omega
  have r1 : ((((cfg0.win 2).blk t).view.emb j) 1).val = t.val / 8 % 4 * 1024 + (j 1).val := by
    show win0_2.index t (1 : Fin 2) * 1024 + 1 * (j 1).val = _
    rw [e5]; omega
  rw [r0, r1]

/-- An index of the result array is in point `t`'s block iff each coordinate is in the block's range on its axis. -/
theorem mem_block (t : Fin cfg0.N) (i : S8192x4096.Idx) :
    i ∈ ((cfg0.win 2).blk t).view.set ↔ ∀ a : Fin 2, win0_2.index t a * S2048x1024.size a ≤ (i a).val
      ∧ (i a).val < win0_2.index t a * S2048x1024.size a + S2048x1024.size a := by
  show i ∈ ((View.whole main_v2).slice (win0_2.rect t)).set ↔ _
  rw [View.set_slice_whole, Rect.mem_set_unit]
  exact Iff.rfl

/-- An entry whose row and column quotients are point `t`'s block numbers lies in `t`'s block. -/
theorem mem_of_quotients (t : Fin cfg0.N) (i : S8192x4096.Idx) (h0 : (i 0).val / 2048 = t.val / 32)
    (h1 : (i 1).val / 1024 = t.val / 8 % 4) : i ∈ ((cfg0.win 2).blk t).view.set := by
  obtain ⟨-, -, -, -, e4, e5⟩ := Blocks.block_numbers t
  rw [mem_block]
  intro a
  match a with
  | ⟨0, _⟩ =>
    show win0_2.index t (0 : Fin 2) * 2048 ≤ (i 0).val ∧ (i 0).val < win0_2.index t (0 : Fin 2) * 2048 + 2048
    rw [e4]; omega
  | ⟨1, _⟩ =>
    show win0_2.index t (1 : Fin 2) * 1024 ≤ (i 1).val ∧ (i 1).val < win0_2.index t (1 : Fin 2) * 1024 + 1024
    rw [e5]; omega

/-- Every entry of the result array lies in the block of the last point of its sweep. -/
theorem covered (i : S8192x4096.Idx) :
    ∃ t : Fin cfg0.N, (cfg0.win 2).flush t = true ∧ i ∈ ((cfg0.win 2).blk t).view.set := by
  have hi0 : (i 0).val < 8192 := (i 0).isLt
  have hi1 : (i 1).val < 4096 := (i 1).isLt
  have hN : cfg0.N = 128 := N_0
  have ht : (i 0).val / 2048 * 32 + (i 1).val / 1024 * 8 + 7 < cfg0.N := by omega
  refine ⟨⟨(i 0).val / 2048 * 32 + (i 1).val / 1024 * 8 + 7, ht⟩, (flush0_2 _).mpr ?_, mem_of_quotients _ i ?_ ?_⟩
  · show ((i 0).val / 2048 * 32 + (i 1).val / 1024 * 8 + 7) % 8 = 7
    omega
  · show (i 0).val / 2048 = ((i 0).val / 2048 * 32 + (i 1).val / 1024 * 8 + 7) / 32
    omega
  · show (i 1).val / 1024 = ((i 0).val / 2048 * 32 + (i 1).val / 1024 * 8 + 7) / 8 % 4
    omega

/-- The result array after the run is X · Q. -/
theorem final (c : Dev nD) : (dats m 0 c).arrAt 2 cfg0.N = product m c :=
  (dats m 0 c).arrAt_eq_of_cover 2 (product m c) (flushed_eq m c) covered

/-- The kernel's run: it terminates with the result array at X · Q and the arguments unchanged. -/
theorem run : θ_run defs (onTc (τ := τ) (main (F := Ideal))) ⟨m, fun _ => 0, ρ⟩ fun r => ∀ c : Dev nD,
      r.2.mem ((c : Thread nD τ).loc main_v2) = product m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Accumulate

end
-- ==== Proof.lean ====
/-
  A [8192, 4096] × [4096, 4096] matrix product computed block by block, against one whole product.

  The kernel makes bf16 copies of X and Q, and for each of the 4 × 4 blocks of the [8192, 4096] result sweeps over the
  8 blocks of 512 contraction positions, adding each block's [2048, 512] × [512, 1024] product into an accumulator that
  starts at zero, and writes the accumulator into the result's block at the end of the sweep. The reference is the one
  product X · Q. Read over the extended reals, where a change of float format is the identity and every operation is
  exact, both results are, at entry (r, c), the sum over k < 4096 of X (r, k) · Q (k, c): the kernel's in 8 consecutive
  groups of 512 terms added to 0, the reference's in one sum. The two agree because addition of extended reals is
  commutative and associative with 0 neutral; no entry needs to be finite for that, so the precondition is not used.

  The modules: `LibBlockSum` (a sum over n · d indices as n sums over d), `LibPlainDot` (a plain product read at an
  entry), `Spec` (the product entry as 8 block shares), `Steps` (what each grid point leaves in the accumulator and
  in the output block), `PayAt` (the body's arithmetic at an entry), `Blocks` (the operand blocks at a grid point),
  `Accumulate` (the accumulator after every point, the written blocks, the result array). Here: the reference's
  product is the same entrywise sum, and the five claims.
-/
import proofs.«147716_j63986422775980_2_alg».proof.Defs
import proofs.«147716_j63986422775980_2_alg».proof.Proof.Gen.Kernel
import proofs.«147716_j63986422775980_2_alg».proof.Proof.Gen.Kernel.Frame
import proofs.«147716_j63986422775980_2_alg».proof.Proof.Gen.KernelIdeal
import proofs.«147716_j63986422775980_2_alg».proof.Proof.Gen.KernelIdeal.Frame
import proofs.«147716_j63986422775980_2_alg».proof.Proof.Gen.KernelIdeal.Value
import proofs.«147716_j63986422775980_2_alg».proof.Proof.Gen.ReferenceIdeal
import proofs.«147716_j63986422775980_2_alg».proof.Proof.Gen.ReferenceIdeal.Run
import proofs.«147716_j63986422775980_2_alg».proof.Proof.Gen.ReferenceIdeal.Read
import proofs.«147716_j63986422775980_2_alg».proof.Proof.Gen.Pre_finite_inputs
import proofs.«147716_j63986422775980_2_alg».proof.Proof.Accumulate
import Idealize.ShloMosaic.Adequacy
import Idealize.ShloMosaic.Init

noncomputable section

open Idealize.ShloMosaic Idealize.ShloMosaic.TcCoe Idealize.SL.Sem

namespace Cert.ReferenceIdeal.RefValue

open Cert.ReferenceIdeal Cert.Lib

/-- The reference's product at the exact values is the entrywise sum over k of X (r, k) · Q (k, c). -/
theorem product_eq (X : (⟨S8192x4096, .f32⟩ : BufTy).Contents (Elt Ideal)) (Q : (⟨S4096x4096, .f32⟩ : BufTy).Contents (Elt Ideal)) :
    Host.dotGeneral (F := Ideal) (φ₁ := .f32) (φ₂ := .f32) dot_S8192x4096_S4096x4096_S8192x4096_1_0_0_1_n_n none X Q
      = PlainDot.mm (R := 8192) (K := 4096) (C := 4096) X Q := by
  funext i
  refine (Read.val_main_v0_apply X Q i).trans ?_
  unfold PlainDot.mm
  refine Finset.sum_congr rfl fun k _ => ?_
  have el : Read.lidx_main_v0 i k = PlainDot.rowIdx (K := 4096) i k := funext fun a => by
    match a with
    | ⟨0, _⟩ => rfl
    | ⟨1, _⟩ => rfl
  have er : Read.ridx_main_v0 i k = PlainDot.colIdx (K := 4096) i k := funext fun a => by
    match a with
    | ⟨0, _⟩ => rfl
    | ⟨1, _⟩ => rfl
  rw [el, er]

end Cert.ReferenceIdeal.RefValue

namespace Cert.Proof

/-- The word-level kernel runs and leaves its arguments as they were. -/
theorem frame_kernel : Cert.frame_Kernel := fun m ρ _ => Cert.Kernel.Gen.frame m ρ

/-- So does the kernel read at the exact values. -/
theorem frame_ideal : Cert.frame_KernelIdeal := fun m ρ _ => Cert.KernelIdeal.Gen.frame m ρ

/-- So does the reference: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Nothing of the kernel was rewritten to read it at the exact values. -/
theorem preserves : Cert.preserves_Kernel_KernelIdeal := trivial

/-- From memories agreeing on X and Q both programs end with the result array at X · Q. -/
theorem algebraic : Cert.algebraic_KernelIdeal_ReferenceIdeal := by
  intro m ρ m' ρ' _ hagree
  refine ⟨fun c => Cert.KernelIdeal.Accumulate.product m c, Cert.KernelIdeal.Accumulate.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact Cert.ReferenceIdeal.RefValue.product_eq _ _

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
